-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128 .f32) (main_arg6 : FVec F S128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 28
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S100000 : Shape := ⟨1, ![100000]⟩
abbrev S100000x1 : Shape := ⟨2, ![100000, 1]⟩

abbrev nBuf : Space → Nat
  | .hbm => 88
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S128x128, .f32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S_, .f32⟩
  | .hbm, ⟨30, _⟩ => ⟨S100000x128, .f32⟩
  | .hbm, ⟨31, _⟩ => ⟨S100000x128, .i1⟩
  | .hbm, ⟨32, _⟩ => ⟨S_, .f32⟩
  | .hbm, ⟨33, _⟩ => ⟨S100000x128, .f32⟩
  | .hbm, ⟨34, _⟩ => ⟨S100000x128, .i1⟩
  | .hbm, ⟨35, _⟩ => ⟨S_, .f32⟩
  | .hbm, ⟨36, _⟩ => ⟨S_, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000, .f32⟩
  | .hbm, ⟨46, _⟩ => ⟨S100000x1, .f32⟩
  | .hbm, ⟨47, _⟩ => ⟨S_, .f32⟩
  | .hbm, ⟨48, _⟩ => ⟨S100000x1, .f32⟩
  | .hbm, ⟨49, _⟩ => ⟨S100000x1, .f32⟩
  | .hbm, ⟨50, _⟩ => ⟨S_, .i32⟩
  | .hbm, ⟨51, _⟩ => ⟨S_, .f32⟩
  | .hbm, ⟨52, _⟩ => ⟨S100000, .f32⟩
  | .hbm, ⟨53, _⟩ => ⟨S100000x1, .f32⟩
  | .hbm, ⟨54, _⟩ => ⟨S_, .f32⟩
  | .hbm, ⟨55, _⟩ => ⟨S100000x1, .f32⟩
  | .hbm, ⟨56, _⟩ => ⟨S100000x1, .f32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S100000, .f32⟩
  | .hbm, ⟨65, _⟩ => ⟨S100000x1, .f32⟩
  | .hbm, ⟨66, _⟩ => ⟨S100000x1, .f32⟩
  | .hbm, ⟨67, _⟩ => ⟨S100000x1, .f32⟩
  | .hbm, ⟨68, _⟩ => ⟨S_, .f32⟩
  | .hbm, ⟨69, _⟩ => ⟨S_, .i1⟩
  | .hbm, ⟨70, _⟩ => ⟨S_, .f32⟩
  | .hbm, ⟨71, _⟩ => ⟨S_, .f32⟩
  | .hbm, ⟨72, _⟩ => ⟨S100000x1, .f32⟩
  | .hbm, ⟨73, _⟩ => ⟨S100000x1, .f32⟩
  | .hbm, ⟨74, _⟩ => ⟨S_, .f32⟩
  | .hbm, ⟨75, _⟩ => ⟨S100000x1, .f32⟩
  | .hbm, ⟨76, _⟩ => ⟨S100000x1, .f32⟩
  | .hbm, ⟨77, _⟩ => ⟨S100000x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S100000x1, .f32⟩
  | .hbm, ⟨83, _⟩ => ⟨S100000x128, .f32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_cst_0 : Ref sig .tc := ⟨.hbm, 32, rfl⟩
abbrev main_call0_v2 : Ref sig .tc := ⟨.hbm, 33, rfl⟩
abbrev main_call0_v3 : Ref sig .tc := ⟨.hbm, 34, rfl⟩
abbrev main_call0_cst_1 : Ref sig .tc := ⟨.hbm, 35, rfl⟩
abbrev main_call0_call0_v0 : Ref sig .tc := ⟨.hbm, 36, rfl⟩
abbrev main_call0_call0_v1 : Ref sig .tc := ⟨.hbm, 37, rfl⟩
abbrev main_call0_v4 : Ref sig .tc := ⟨.hbm, 38, rfl⟩
abbrev main_call0_v5 : Ref sig .tc := ⟨.hbm, 39, rfl⟩
abbrev main_call0_cst_2 : Ref sig .tc := ⟨.hbm, 40, rfl⟩
abbrev main_call0_v6 : Ref sig .tc := ⟨.hbm, 41, rfl⟩
abbrev main_call0_v7 : Ref sig .tc := ⟨.hbm, 42, rfl⟩
abbrev main_v18 : Ref sig .tc := ⟨.hbm, 43, rfl⟩
abbrev main_cst_1 : Ref sig .tc := ⟨.hbm, 44, rfl⟩
abbrev main_v19 : Ref sig .tc := ⟨.hbm, 45, rfl⟩
abbrev main_v20 : Ref sig .tc := ⟨.hbm, 46, rfl⟩
abbrev main_cst_2 : Ref sig .tc := ⟨.hbm, 47, rfl⟩
abbrev main_v21 : Ref sig .tc := ⟨.hbm, 48, rfl⟩
abbrev main_v22 : Ref sig .tc := ⟨.hbm, 49, rfl⟩
abbrev main_c_3 : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_cst_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_cst_1 : Ref sig .tc := ⟨.hbm, 61, rfl⟩
abbrev main_call1_v8 : Ref sig .tc := ⟨.hbm, 62, rfl⟩
abbrev main_call1_cst_2 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_v12 : Ref sig .tc := ⟨.hbm, 67, rfl⟩
abbrev main_call1_cst_3 : Ref sig .tc := ⟨.hbm, 68, rfl⟩
abbrev main_call1_v13 : Ref sig .tc := ⟨.hbm, 69, rfl⟩
abbrev main_call1_cst_4 : Ref sig .tc := ⟨.hbm, 70, rfl⟩
abbrev main_call1_call0_v0 : Ref sig .tc := ⟨.hbm, 71, rfl⟩
abbrev main_call1_call0_v1 : Ref sig .tc := ⟨.hbm, 72, rfl⟩
abbrev main_v23 : Ref sig .tc := ⟨.hbm, 73, rfl⟩
abbrev main_cst_4 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RowNorm.lean ====
/-
  The mathematics of one output row, stated once over the extended reals and over no program.

  Both programs compute, for every node `r` and output feature `o`,

      lin r q   = (∑ k, feat r k · W q k) + b q
      act r q   = lin r q  if lin r q > 0,  else  exp (lin r q) − 1
      mean r    = (∑ q, act r q) / 128
      cen r q   = act r q − mean r
      var r     = (∑ q, cen r q · cen r q) / 128 + ε
      out r o   = cen r o · scale o · (var r)^(−1/2) + offset o

  with `feat` the scatter-added messages (the same host computation on both sides, never opened here).
  `rowOut` is the last five lines as a function of the row's 128 values `lin r ·`; `linRow` is the first.
  The float literals stay the words the programs spell (`128.0`, `1.0`, `ε`): the same word on both sides is
  never evaluated; only `0.0 = 0`, `1.0 = 1` and `128.0 = 128` are read, where one side's text needs them
  (a sum's initial value; the reference's `1.0 · (exp x − 1)`; the reference's divisor `128.0 − 0`).
-/
import Idealize.ShloMosaic.PureOps.Ideal
import Idealize.ShloMosaic.PureOps.Ideal.Laws
import Idealize.ShloMosaic.Lib.ValueIdx

noncomputable section

namespace Cert.RowNorm

open Idealize.ShloMosaic Idealize.ShloMosaic.ValueIdx
open scoped BigOperators

/-! ## The literals -/

/-- `0.0` denotes `0`. -/
theorem zero_word : Ideal.ofBits .f32 0x00000000#32 = 0 := Ideal.ofBits_zero_f32

/-- `1.0` denotes `1`. -/
theorem one_word : Ideal.ofBits .f32 0x3F800000#32 = 1 := by
  simp [Ideal.ofBits, Ideal.ieee, -EReal.coe_mul]; norm_num

/-- `128.0` denotes the real `128`. -/
theorem c128_word : Ideal.ofBits .f32 0x43000000#32 = ((128 : ℝ) : EReal) := by
  simp [Ideal.ofBits, Ideal.ieee, -EReal.coe_mul]; norm_num

/-! ## The activation -/

/-- The kernel's spelling of ELU at one extended real: `x` above zero, `exp x − 1.0` otherwise. -/
def act (x : EReal) : EReal :=
  Scalar.select (Ideal.cmp .ogt x (Ideal.ofBits .f32 0x00000000#32)) x (Ideal.exp x - Ideal.ofBits .f32 0x3F800000#32)

/-- The reference's spelling — `x` above zero, else `1.0 · (exp y − 1)` at `y` the argument guarded to `0.0` above
    zero — is the same function: below or at zero the guard returns `x`, and `1 · t = t`. -/
theorem act_guarded (x : EReal) :
    Scalar.select (Ideal.cmp .ogt x (Ideal.ofBits .f32 0x00000000#32)) x
        (Ideal.ofBits .f32 0x3F800000#32 *
          (Ideal.exp (Scalar.select (Ideal.cmp .ogt x (Ideal.ofBits .f32 0x00000000#32)) (Ideal.ofBits .f32 0x00000000#32) x) - 1))
      = act x := by
  unfold act
  rcases BitVec.eq_zero_or_eq_one (Ideal.cmp .ogt x (Ideal.ofBits .f32 0x00000000#32)) with h | h
  · rw [h, select_zero, select_zero, select_zero, one_word, one_mul]
  · rw [h, select_one, select_one]

/-! ## One row -/

/-- The row's result at feature `o` from the row's 128 linear outputs `L`, the scale and the offset. -/
def rowOut (L sc off : Fin 128 → EReal) (o : Fin 128) : EReal :=
  (act (L o) - Ideal.div (∑ q : Fin 128, act (L q)) (Ideal.ofBits .f32 0x43000000#32))
      * sc o
      * Ideal.rsqrt
          (Ideal.div (∑ q : Fin 128,
              (act (L q) - Ideal.div (∑ q' : Fin 128, act (L q')) (Ideal.ofBits .f32 0x43000000#32))
                * (act (L q) - Ideal.div (∑ q' : Fin 128, act (L q')) (Ideal.ofBits .f32 0x43000000#32)))
            (Ideal.ofBits .f32 0x43000000#32)
          + Ideal.ofBits .f32 0x3089705F#32)
    + off o

/-- The linear output of one row (`ft`: the row's 128 features) at feature `q`. -/
def linRow (ft : Fin 128 → EReal) (W : (⟨2, ![128, 128]⟩ : Shape).Idx → EReal) (b : (⟨1, ![128]⟩ : Shape).Idx → EReal)
    (q : Fin 128) : EReal :=
  (∑ k : Fin 128, ft k * W (ix2 q k)) + b (ix1 q)

/-- The whole result, index by index, as a function of the feature array and the four parameter arrays. -/
def result {n : Nat} (feat : (⟨2, ![n, 128]⟩ : Shape).Idx → EReal) (W : (⟨2, ![128, 128]⟩ : Shape).Idx → EReal)
    (b sc off : (⟨1, ![128]⟩ : Shape).Idx → EReal) : (⟨2, ![n, 128]⟩ : Shape).Idx → EReal :=
  fun i => rowOut (linRow (fun k => feat (ix2 (i 0) k)) W b) (fun q => sc (ix1 q)) (fun q => off (ix1 q)) (i 1)

theorem result_ix2 {n : Nat} (feat : (⟨2, ![n, 128]⟩ : Shape).Idx → EReal) (W : (⟨2, ![128, 128]⟩ : Shape).Idx → EReal)
    (b sc off : (⟨1, ![128]⟩ : Shape).Idx → EReal) (r : Fin n) (o : Fin 128) :
    result feat W b sc off (ix2 r o)
      = rowOut (linRow (fun k => feat (ix2 r k)) W b) (fun q => sc (ix1 q)) (fun q => off (ix1 q)) o := rfl

end Cert.RowNorm

end
-- ==== Proof.LibColumn.lean ====
/-
  Layout operations of "keepdims" row statistics, read at an index given by coordinates.

  A row statistic of an `[a, b]` array (a sum, a mean, a variance along the second axis) lives in an `[a]` array,
  is given a unit column axis, `[a, 1]`, and is spread back over the row, `[a, b]`; a per-feature parameter `[b]` is
  given a unit row axis `[1, b]` and spread over the rows. Each of these steps, in a kernel's vector spelling
  (`shapeCast`, `broadcastTo`) and in the host's (`broadcastInDim` with explicit axes), reads at `(p, c)` the
  operand at the evident coordinates. The lemmas are stated over indices built by `ix1` / `ix2` at every extent, so
  they apply to a printed operation by unification.
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[a] → [a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's `[a, 1] → [a, b]` along axes (0, 1) reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[b] → [1, b]` along axis 1 reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- The host's `[1, b] → [a, b]` along axes (0, 1) reads, at `(p, c)`, the one row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's spread of a rank-0 value over any shape reads, everywhere, that value. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun ax => ax.elim0

end Cert.LibColumn
-- ==== Proof.KernelOps.lean ====
/-
  The kernel body's three non-pointwise operations, each read at coordinates: a lane sum of a `[5000, 128]` vector is
  the sum over the row's 128 columns; the product of a `[5000, 128]` block with the transposed `[128, 128]` weights
  into a zero accumulator is the sum over the contracted feature of block entry times weight entry.
-/
import proofs.«164702_j38371237822945_1_alg».proof.Proof.Gen.KernelIdeal.Skeleton
import proofs.«164702_j38371237822945_1_alg».proof.Proof.RowNorm
import proofs.«164702_j38371237822945_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Facts₀ Idealize.ShloMosaic Idealize.ShloMosaic.ValueIdx
open Cert.RowNorm Cert.LibColumn
open scoped BigOperators

/-! ## The non-pointwise operations, one at a time -/

/-- A lane sum of a `[5000, 128]` vector, read at row `p`: the sum over the row's 128 columns. -/
theorem laneSum_apply (src : FVec Ideal S5000x128 .f32) (hφ : FKind.Formats .f32)
    (hacc : (0x00000000#32 : BitVec 32) = 0x00000000#32) (p : Fin 5000) :
    multiReduction .add [1] S5000 src 0x00000000#32 reduces_S5000x128_S5000 hφ hacc (ix1 p)
      = ∑ k : Fin 128, src (ix2 p k) := by
  refine (Ideal.multiReduction_add_single src 0x00000000#32 reduces_S5000x128_S5000 hφ hacc (ix1 p)).trans ?_
  exact Finset.sum_congr rfl fun k _ => congrArg src (funext fun a => Fin.ext (match a with | ⟨0, _⟩ => rfl | ⟨1, _⟩ => rfl))

/-- The body's one contraction: `[5000, 128] × [128, 128]` over the left operand's columns and the right operand's rows. -/
abbrev D := dot_S5000x128_S128x128_S5000x128_1_0_0_1_n_n

theorem D_rank : D.contr.rank = 1 := rfl
theorem D_size : D.contr.size ⟨0, by rw [D_rank]; exact Nat.one_pos⟩ = 128 := rfl

/-- The product of a `[5000, 128]` block with the TRANSPOSED `[128, 128]` weights into the zero accumulator, read at
    `(p, q)`: the sum over the contracted feature `k` of block `(p, k)` times weight `(q, k)`. -/
theorem product_apply (a : FVec Ideal S5000x128 .bf16) (w : FVec Ideal S128x128 .bf16) (p : Fin 5000) (q : Fin 128) :
    matmul dot_S5000x128_S128x128_S5000x128_1_0_0_1_n_n none a
        (transpose S128x128 [1, 0] w transposes_S128x128_p1_0_S128x128) (constant S5000x128 .f32 0x00000000#32) (ix2 p q)
      = ∑ k : Fin 128, a (ix2 p k) * w (ix2 q k) := by
  refine (Ideal.matmul_constant_zero_apply D none a _ (ix2 p q)).trans ?_
  refine (Equiv.sum_comp (contrEquiv1 D 128 D_rank D_size).symm _).symm.trans ?_
  refine Finset.sum_congr rfl fun k _ => ?_
  have hl : D.lhsIdx (ix2 p q) ((contrEquiv1 D 128 D_rank D_size).symm k) = ix2 p k := by
    funext ax; apply Fin.ext
    match ax with
    | ⟨0, _⟩ => rfl
    | ⟨1, _⟩ =>
      exact (D.lhsIdx_val_of_single (cl := (1 : Fin 2)) rfl (ix2 p q) ((contrEquiv1 D 128 D_rank D_size).symm k)).trans
        (contrEquiv1_symm_val D 128 D_rank D_size k)
  have hr : D.rhsIdx (ix2 p q) ((contrEquiv1 D 128 D_rank D_size).symm k) = ix2 k q := by
    funext ax; apply Fin.ext
    match ax with
    | ⟨0, _⟩ =>
      exact (D.rhsIdx_val_of_single (cr := (0 : Fin 2)) rfl (ix2 p q) ((contrEquiv1 D 128 D_rank D_size).symm k)).trans
        (contrEquiv1_symm_val D 128 D_rank D_size k)
    | ⟨1, _⟩ => rfl
  rw [hl, hr]
  exact congrArg (a (ix2 p k) * ·) (transpose_ix2_apply w transposes_S128x128_p1_0_S128x128 k q)

end Cert.KernelIdeal.Body

end
-- ==== Proof.KernelBody.lean ====
/-
  The kernel body's arithmetic at one index of its output block.

  The body loads a `[5000, 128]` block of features `x0`, the whole weight matrix `x1`, and the three `[1, 128]`
  parameter rows `x2` (bias), `x3` (scale), `x4` (offset), and stores one value. That value is a composition of six
  stages, named below as the body spells them: the linear outputs (product with the transposed weights into a zero
  accumulator, plus the bias row), the activation, the row mean as a column, the centred rows, the inverse square
  root of the mean square plus ε as a column, and the scaled and shifted output. Read at `(p, q)` of the block it is
  `RowNorm.rowOut` of row `p`'s linear outputs: every stage is pointwise but for the product, the two lane sums
  and the unit-axis casts and spreads around them, which are read at coordinates one stage at a time.
-/
import proofs.«164702_j38371237822945_1_alg».proof.Proof.Gen.KernelIdeal.Skeleton
import proofs.«164702_j38371237822945_1_alg».proof.Proof.KernelOps

noncomputable section

namespace Cert.KernelIdeal.Body

open Cert.KernelIdeal Cert.KernelIdeal.Facts₀ Idealize.ShloMosaic Idealize.ShloMosaic.ValueIdx
open Cert.RowNorm Cert.LibColumn
open scoped BigOperators

theorem exp_apply {s : Shape} {φ : FTy} (a : FVec Ideal s φ) (i : s.Idx) : exp a i = Ideal.exp (a i) := rfl
theorem rsqrt_apply {s : Shape} {φ : FTy} (a : FVec Ideal s φ) (i : s.Idx) : rsqrt a i = Ideal.rsqrt (a i) := rfl

/-- The zero word is the sum's neutral word. -/
theorem zero_acc : (0x00000000#32 : BitVec 32) = 0x00000000#32 := rfl

/-! ## The stages, as the body spells them -/

/-- The linear outputs of the block: block times transposed weights into zero, plus the bias row. -/
def linB (x0 : FVec Ideal S5000x128 .f32) (x1 : FVec Ideal S128x128 .f32) (x2 : FVec Ideal S1x128 .f32) : FVec Ideal S5000x128 .f32 :=
  addf (matmul dot_S5000x128_S128x128_S5000x128_1_0_0_1_n_n none (truncf .bf16 x0 bitsLt_bf16_f32)
      (transpose S128x128 [1, 0] (truncf .bf16 x1 bitsLt_bf16_f32) transposes_S128x128_p1_0_S128x128)
      (constant S5000x128 .f32 0x00000000#32))
    (broadcastTo S5000x128 x2 broadcasts_S1x128_S5000x128)

/-- The activation: `l` above zero, `exp l − 1.0` otherwise. -/
def actB (l : FVec Ideal S5000x128 .f32) : FVec Ideal S5000x128 .f32 :=
  select (cmpf .ogt l (broadcast S5000x128 (Scalar.ofBits .f32 0x00000000#32))) l
    (subf (exp l) (broadcast S5000x128 (Scalar.ofBits .f32 0x3F800000#32)))

/-- The row means, as a column: the lane sum, given its unit axis, over `128.0`. -/
def meanB (e : FVec Ideal S5000x128 .f32) : FVec Ideal S5000x1 .f32 :=
  divf (shapeCast S5000x1 (multiReduction .add [1] S5000 e 0x00000000#32 reduces_S5000x128_S5000 (.inl rfl) zero_acc)
      shapeCasts_S5000_S5000x1)
    (broadcast S5000x1 (Scalar.ofBits .f32 0x43000000#32))

/-- The centred rows. -/
def cenB (e : FVec Ideal S5000x128 .f32) : FVec Ideal S5000x128 .f32 :=
  subf e (broadcastTo S5000x128 (meanB e) broadcasts_S5000x1_S5000x128)

/-- The inverse square root of the rows' mean squares plus ε, as a column. -/
def invDevB (c : FVec Ideal S5000x128 .f32) : FVec Ideal S5000x1 .f32 :=
  rsqrt (addf (meanB (mulf c c)) (broadcast S5000x1 (Scalar.ofBits .f32 0x3089705F#32)))

/-- The output: centred rows times the scale row times the inverse deviation column, plus the offset row. -/
def outB (c : FVec Ideal S5000x128 .f32) (x3 x4 : FVec Ideal S1x128 .f32) : FVec Ideal S5000x128 .f32 :=
  addf (mulf (mulf c (broadcastTo S5000x128 x3 broadcasts_S1x128_S5000x128))
      (broadcastTo S5000x128 (invDevB c) broadcasts_S5000x1_S5000x128))
    (broadcastTo S5000x128 x4 broadcasts_S1x128_S5000x128)

/-- The body's stored value is the six stages composed (the body's same-shape casts are the identity). -/
theorem payload_stages (x0 : Vec Ideal S5000x128 .f32) (x1 : Vec Ideal S128x128 .f32) (x2 x3 x4 : Vec Ideal S1x128 .f32) :
    Gen.k0_pay1 x0 x1 x2 x3 x4 = outB (cenB (actB (linB x0 x1 x2))) x3 x4 := by
  unfold Gen.k0_pay1
  simp only [shapeCast_self]
  rfl

/-! ## Each stage at coordinates -/

theorem lin_apply (x0 : FVec Ideal S5000x128 .f32) (x1 : FVec Ideal S128x128 .f32) (x2 : FVec Ideal S1x128 .f32)
    (p : Fin 5000) (q : Fin 128) :
    linB x0 x1 x2 (ix2 p q) = (∑ k : Fin 128, x0 (ix2 p k) * x1 (ix2 q k)) + x2 (ix2 (0 : Fin 1) q) := by
  unfold linB
  rw [addf_apply, product_apply, broadcastTo_1b_ab_apply]
  rfl

theorem act_apply (l : FVec Ideal S5000x128 .f32) (i : S5000x128.Idx) : actB l i = act (l i) := rfl

theorem mean_apply (e : FVec Ideal S5000x128 .f32) (p : Fin 5000) (u : Fin 1) :
    meanB e (ix2 p u) = Ideal.div (∑ k : Fin 128, e (ix2 p k)) (Ideal.ofBits .f32 0x43000000#32) := by
  unfold meanB
  rw [divf_apply, shapeCast_a_a1_apply, laneSum_apply]
  rfl

theorem cen_apply (e : FVec Ideal S5000x128 .f32) (p : Fin 5000) (q : Fin 128) :
    cenB e (ix2 p q) = e (ix2 p q) - Ideal.div (∑ k : Fin 128, e (ix2 p k)) (Ideal.ofBits .f32 0x43000000#32) := by
  unfold cenB
  rw [subf_apply, broadcastTo_a1_ab_apply, mean_apply]

theorem invDev_apply (c : FVec Ideal S5000x128 .f32) (p : Fin 5000) (u : Fin 1) :
    invDevB c (ix2 p u)
      = Ideal.rsqrt (Ideal.div (∑ k : Fin 128, c (ix2 p k) * c (ix2 p k)) (Ideal.ofBits .f32 0x43000000#32)
          + Ideal.ofBits .f32 0x3089705F#32) := by
  unfold invDevB
  rw [rsqrt_apply, addf_apply, mean_apply]
  rfl

theorem out_apply (c : FVec Ideal S5000x128 .f32) (x3 x4 : FVec Ideal S1x128 .f32) (p : Fin 5000) (q : Fin 128) :
    outB c x3 x4 (ix2 p q)
      = c (ix2 p q) * x3 (ix2 (0 : Fin 1) q)
          * Ideal.rsqrt (Ideal.div (∑ k : Fin 128, c (ix2 p k) * c (ix2 p k)) (Ideal.ofBits .f32 0x43000000#32)
              + Ideal.ofBits .f32 0x3089705F#32)
        + x4 (ix2 (0 : Fin 1) q) := by
  unfold outB
  rw [addf_apply, mulf_apply, mulf_apply, broadcastTo_1b_ab_apply, broadcastTo_a1_ab_apply, invDev_apply,
    broadcastTo_1b_ab_apply]

/-! ## The stored value at an index -/

/-- The body's stored value at `(p, q)` of its block is the row function of row `p`'s linear outputs. -/
theorem payload_apply (x0 : Vec Ideal S5000x128 .f32) (x1 : Vec Ideal S128x128 .f32) (x2 x3 x4 : Vec Ideal S1x128 .f32)
    (p : Fin 5000) (q : Fin 128) :
    Gen.k0_pay1 x0 x1 x2 x3 x4 (ix2 p q)
      = rowOut (fun q' => (∑ k : Fin 128, x0 (ix2 p k) * x1 (ix2 q' k)) + x2 (ix2 (0 : Fin 1) q'))
          (fun q' => x3 (ix2 (0 : Fin 1) q')) (fun q' => x4 (ix2 (0 : Fin 1) q')) q := by
  rw [payload_stages, out_apply]
  have hc : ∀ k : Fin 128, cenB (actB (linB x0 x1 x2)) (ix2 p k)
      = act ((∑ k' : Fin 128, x0 (ix2 p k') * x1 (ix2 k k')) + x2 (ix2 (0 : Fin 1) k))
        - Ideal.div (∑ q' : Fin 128, act ((∑ k' : Fin 128, x0 (ix2 p k') * x1 (ix2 q' k')) + x2 (ix2 (0 : Fin 1) q')))
            (Ideal.ofBits .f32 0x43000000#32) := fun k => by
    rw [cen_apply, act_apply, lin_apply]
    exact congrArg (fun s => _ - Ideal.div s _) (Finset.sum_congr rfl fun q' _ => by rw [act_apply, lin_apply])
  simp only [hc]
  rfl

end Cert.KernelIdeal.Body

end
-- ==== Proof.KernelHost.lean ====
/-
  What the host operations before the pallas_call leave in the arrays the call stages.

  The call's first operand is the feature array: the gathered source rows `x[col']` (a negative `col` wrapped by
  `+100000`), each scaled by its edge value, scatter-added into a zero `[100000, 128]` array by destination row —
  the term `featK` below, as the program spells it, and never opened by this certificate. Its third to fifth operands are
  the bias, scale and offset vectors reshaped `[128] → [1, 128]`; the second is the weight matrix itself.
-/
import proofs.«164702_j38371237822945_1_alg».proof.Proof.Gen.KernelIdeal.Frame
import Idealize.ShloMosaic.Lib.StableHlo.Run
import Idealize.ShloMosaic.PureOps.Ideal

noncomputable section

namespace Cert.KernelIdeal.HostPart

open Cert.KernelIdeal Cert.KernelIdeal.Facts₀ Idealize.ShloMosaic Idealize.ShloMosaic.TcCoe Idealize.SL.Sem
open Idealize.ShloMosaic.StableHlo

/-- The feature array: edge-weighted gathered rows, scatter-added by destination row into zeros. -/
def featK {F : FTy → Type} [FloatOps F] (x : (⟨S100000x128, .f32⟩ : BufTy).Contents (Elt F))
    (row col : (⟨S1600000, .i32⟩ : BufTy).Contents (Elt F)) (val : (⟨S1600000, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant (F := F) S_ .f32 0x00000000#32))
    (broadcastInDim S1600000x1 ![0] bcast_S1600000_S1600000x1_0 row)
    (mulf (broadcastInDim S1600000x128 ![0, 1] bcast_S1600000x1_S1600000x128_0_1 (broadcastInDim S1600000x1 ![0] bcast_S1600000_S1600000x1_0 val))
      (Host.gather gather_S100000x128_S1600000x1_S1600000x128_1_0_n_n_0_1_1128 x
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

variable (m : (ℓ : Loc nD τ sig) → Buf (Elt Ideal) ℓ)

/-- The call finds the feature array in its first operand. -/
theorem V_feat (c : Dev nD) :
    (Gen.V m c main_v12 : S100000x128.Idx → EReal)
      = featK (F := Ideal) (m ((c : Thread nD τ).loc main_arg0)) (m ((c : Thread nD τ).loc main_arg1))
          (m ((c : Thread nD τ).loc main_arg2)) (m ((c : Thread nD τ).loc main_arg3)) := by
  dsimp only [Gen.V, Gen.hostOps0]
  after_results
  rfl

/-- The call finds the bias vector, reshaped to one row, in its third operand; -/
theorem V_bias (c : Dev nD) :
    (Gen.V m c main_v13 : S1x128.Idx → EReal) = shapeCast S1x128 (m ((c : Thread nD τ).loc main_arg5)) shapeCasts_S128_S1x128 := by
  dsimp only [Gen.V, Gen.hostOps0]
  after_results
  rfl

/-- the scale vector in its fourth; -/
theorem V_scale (c : Dev nD) :
    (Gen.V m c main_v14 : S1x128.Idx → EReal) = shapeCast S1x128 (m ((c : Thread nD τ).loc main_arg6)) shapeCasts_S128_S1x128 := by
  dsimp only [Gen.V, Gen.hostOps0]
  after_results
  rfl

/-- the offset vector in its fifth. -/
theorem V_offset (c : Dev nD) :
    (Gen.V m c main_v15 : S1x128.Idx → EReal) = shapeCast S1x128 (m ((c : Thread nD τ).loc main_arg7)) shapeCasts_S128_S1x128 := by
  dsimp only [Gen.V, Gen.hostOps0]
  after_results
  rfl

end Cert.KernelIdeal.HostPart

end
-- ==== Proof.KernelValue.lean ====
/-
  The kernel program's result array as ONE function of its argument arrays.

  The pallas_call walks 20 grid points; point `t` stages rows `5000·t … 5000·t + 4999` of the feature array (window 0),
  the whole weight matrix and the three parameter rows (windows 1–4, the same block at every point), and writes
  back rows `5000·t …` of the result (window 5). So what point `t` writes back at `(p, q)` of its block is the body's
  stored value on those blocks, which is `RowNorm.rowOut` of row `5000·t + p` of the feature array: block `t` of
  `RowNorm.result`. The 20 blocks cover the result array (row `r` lies in block `r / 5000`), hence the array after
  the run is `RowNorm.result` of the feature array, the weights, and the bias, scale and offset vectors.
  The feature array itself is what the host operations before the call leave in the call's first operand: the
  scatter-add, by destination row, of the gathered source rows scaled by the edge values — named `featK`, and never
  opened. The three parameter rows are the `[128] → [1, 128]` reshapes of the argument vectors.
-/
import proofs.«164702_j38371237822945_1_alg».proof.Proof.Gen.KernelIdeal.Value
import proofs.«164702_j38371237822945_1_alg».proof.Proof.KernelBody
import proofs.«164702_j38371237822945_1_alg».proof.Proof.KernelHost
import Idealize.ShloMosaic.Lib.StableHlo.Run

noncomputable section

namespace Cert.KernelIdeal.Whole

open Cert.KernelIdeal Cert.KernelIdeal.Facts₀ Idealize.ShloMosaic Idealize.ShloMosaic.TcCoe Idealize.SL.Sem
open Idealize.ShloMosaic.ValueIdx Idealize.ShloMosaic.StableHlo
open Idealize.ShloMosaic.Pipeline (Dat)
open Cert.RowNorm Cert.LibColumn Cert.KernelIdeal.Body Cert.KernelIdeal.HostPart
open scoped BigOperators

variable (m : (ℓ : Loc nD τ sig) → Buf (Elt Ideal) ℓ) (ρ : Dev nD → PrngReg)

/-! ## The index maps, decided over the grid -/

/-- Windows 0 and 5 move one block of rows per grid point and stay in column block 0; windows 1–4 stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t` is row `5000·t + p` of the array. -/
def rowOf (t : Fin cfg0.N) (p : Fin 5000) : Fin 100000 :=
  ⟨t.val * 5000 + p.val, by have h : cfg0.N = 20 := Gen.N_0; have := t.isLt; have := p.isLt; omega⟩

/-! ## Where a block's element sits in its array -/

/-- Element `(p, k)` of window 0's block at `t` is element `(5000·t + p, k)` of the feature array. -/
theorem emb0 (t : Fin cfg0.N) (p : Fin 5000) (k : Fin 128) :
    ((cfg0.win 0).blk t).view.emb (ix2 p k) = ix2 (rowOf t p) k := by
  obtain ⟨e0, e1, -⟩ := idx_facts t
  funext a; apply Fin.ext
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- Window 1's block is the whole weight matrix. -/
theorem emb1 (t : Fin cfg0.N) (q k : Fin 128) :
    ((cfg0.win 1).blk t).view.emb (ix2 q k) = ix2 q k := by
  obtain ⟨-, -, e0, e1, -⟩ := idx_facts t
  funext a; apply Fin.ext
  match a with
  | ⟨0, _⟩ => show win0_1.index t (0 : Fin 2) * 128 + 1 * q.val = q.val; rw [e0]; omega
  | ⟨1, _⟩ => show win0_1.index t (1 : Fin 2) * 128 + 1 * k.val = k.val; rw [e1]; omega

/-- Windows 2, 3 and 4's blocks are the whole parameter rows. -/
theorem emb2 (t : Fin cfg0.N) (u : Fin 1) (q : Fin 128) :
    ((cfg0.win 2).blk t).view.emb (ix2 u q) = ix2 u q := by
  obtain ⟨-, -, -, -, e0, e1, -⟩ := idx_facts t
  funext a; apply Fin.ext
  match a with
  | ⟨0, _⟩ => show win0_2.index t (0 : Fin 2) * 1 + 1 * u.val = u.val; rw [e0]; omega
  | ⟨1, _⟩ => show win0_2.index t (1 : Fin 2) * 128 + 1 * q.val = q.val; rw [e1]; omega
theorem emb3 (t : Fin cfg0.N) (u : Fin 1) (q : Fin 128) :
    ((cfg0.win 3).blk t).view.emb (ix2 u q) = ix2 u q := by
  obtain ⟨-, -, -, -, -, -, e0, e1, -⟩ := idx_facts t
  funext a; apply Fin.ext
  match a with
  | ⟨0, _⟩ => show win0_3.index t (0 : Fin 2) * 1 + 1 * u.val = u.val; rw [e0]; omega
  | ⟨1, _⟩ => show win0_3.index t (1 : Fin 2) * 128 + 1 * q.val = q.val; rw [e1]; omega
theorem emb4 (t : Fin cfg0.N) (u : Fin 1) (q : Fin 128) :
    ((cfg0.win 4).blk t).view.emb (ix2 u q) = ix2 u q := by
  obtain ⟨-, -, -, -, -, -, -, -, e0, e1, -⟩ := idx_facts t
  funext a; apply Fin.ext
  match a with
  | ⟨0, _⟩ => show win0_4.index t (0 : Fin 2) * 1 + 1 * u.val = u.val; rw [e0]; omega
  | ⟨1, _⟩ => show win0_4.index t (1 : Fin 2) * 128 + 1 * q.val = q.val; rw [e1]; omega

/-- Element `(p, q)` of window 5's block at `t` is element `(5000·t + p, q)` of the result array. -/
theorem emb5 (t : Fin cfg0.N) (p : Fin 5000) (q : Fin 128) :
    ((cfg0.win 5).blk t).view.emb (ix2 p q) = ix2 (rowOf t p) q := by
  obtain ⟨-, -, -, -, -, -, -, -, -, -, e0, e1⟩ := idx_facts t
  funext a; apply Fin.ext
  match a with
  | ⟨0, _⟩ => show win0_5.index t (0 : Fin 2) * 5000 + 1 * p.val = t.val * 5000 + p.val; rw [e0]; omega
  | ⟨1, _⟩ => show win0_5.index t (1 : Fin 2) * 128 + 1 * q.val = q.val; rw [e1]; omega

/-! ## A block read of ANY array, at coordinates -/

theorem read0 (A : S100000x128.Idx → EReal) (t : Fin cfg0.N) (p : Fin 5000) (k : Fin 128) :
    ((cfg0.win 0).blk t).view.read (Elt Ideal) A (ix2 p k) = A (ix2 (rowOf t p) k) := by
  show A (((cfg0.win 0).blk t).view.emb (ix2 p k)) = _
  rw [emb0]
theorem read1 (A : S128x128.Idx → EReal) (t : Fin cfg0.N) (q k : Fin 128) :
    ((cfg0.win 1).blk t).view.read (Elt Ideal) A (ix2 q k) = A (ix2 q k) := by
  show A (((cfg0.win 1).blk t).view.emb (ix2 q k)) = _
  rw [emb1]
theorem read2 (A : S1x128.Idx → EReal) (t : Fin cfg0.N) (u : Fin 1) (q : Fin 128) :
    ((cfg0.win 2).blk t).view.read (Elt Ideal) A (ix2 u q) = A (ix2 u q) := by
  show A (((cfg0.win 2).blk t).view.emb (ix2 u q)) = _
  rw [emb2]
theorem read3 (A : S1x128.Idx → EReal) (t : Fin cfg0.N) (u : Fin 1) (q : Fin 128) :
    ((cfg0.win 3).blk t).view.read (Elt Ideal) A (ix2 u q) = A (ix2 u q) := by
  show A (((cfg0.win 3).blk t).view.emb (ix2 u q)) = _
  rw [emb3]
theorem read4 (A : S1x128.Idx → EReal) (t : Fin cfg0.N) (u : Fin 1) (q : Fin 128) :
    ((cfg0.win 4).blk t).view.read (Elt Ideal) A (ix2 u q) = A (ix2 u q) := by
  show A (((cfg0.win 4).blk t).view.emb (ix2 u q)) = _
  rw [emb4]
theorem read5 (A : S100000x128.Idx → EReal) (t : Fin cfg0.N) (p : Fin 5000) (q : Fin 128) :
    ((cfg0.win 5).blk t).view.read (Elt Ideal) A (ix2 p q) = A (ix2 (rowOf t p) q) := by
  show A (((cfg0.win 5).blk t).view.emb (ix2 p q)) = _
  rw [emb5]

/-! ## The input blocks, read off the arrays the call finds -/

theorem blk0 (c : Dev nD) (t : Fin cfg0.N) (p : Fin 5000) (k : Fin 128) :
    Gen.iblk m c 0 t (ix2 p k) = Gen.V m c (Pipeline.arrRef spec0 0) (ix2 (rowOf t p) k) := by
  unfold Gen.iblk
  exact read0 (Gen.V m c (Pipeline.arrRef spec0 0)) t p k
theorem blk1 (c : Dev nD) (t : Fin cfg0.N) (q k : Fin 128) :
    Gen.iblk m c 1 t (ix2 q k) = Gen.V m c (Pipeline.arrRef spec0 1) (ix2 q k) := by
  unfold Gen.iblk
  exact read1 (Gen.V m c (Pipeline.arrRef spec0 1)) t q k
theorem blk2 (c : Dev nD) (t : Fin cfg0.N) (u : Fin 1) (q : Fin 128) :
    Gen.iblk m c 2 t (ix2 u q) = Gen.V m c (Pipeline.arrRef spec0 2) (ix2 u q) := by
  unfold Gen.iblk
  exact read2 (Gen.V m c (Pipeline.arrRef spec0 2)) t u q
theorem blk3 (c : Dev nD) (t : Fin cfg0.N) (u : Fin 1) (q : Fin 128) :
    Gen.iblk m c 3 t (ix2 u q) = Gen.V m c (Pipeline.arrRef spec0 3) (ix2 u q) := by
  unfold Gen.iblk
  exact read3 (Gen.V m c (Pipeline.arrRef spec0 3)) t u q
theorem blk4 (c : Dev nD) (t : Fin cfg0.N) (u : Fin 1) (q : Fin 128) :
    Gen.iblk m c 4 t (ix2 u q) = Gen.V m c (Pipeline.arrRef spec0 4) (ix2 u q) := by
  unfold Gen.iblk
  exact read4 (Gen.V m c (Pipeline.arrRef spec0 4)) t u q

/-! ## What point `t` writes back -/

theorem hz : (![0, 0] : Fin 2 → Nat) = fun _ => 0 := funext fun a => by fin_cases a <;> rfl

/-- The result as a function of the five arrays the call stages: `RowNorm.result` of the feature array and the
    weights, with the bias, scale and offset read off their one-row arrays. -/
def ofStaged (A0 : S100000x128.Idx → EReal) (A1 : S128x128.Idx → EReal) (A2 A3 A4 : S1x128.Idx → EReal) :
    S100000x128.Idx → EReal :=
  result A0 A1 (fun i => A2 (ix2 (0 : Fin 1) (i 0))) (fun i => A3 (ix2 (0 : Fin 1) (i 0))) (fun i => A4 (ix2 (0 : Fin 1) (i 0)))

theorem ofStaged_ix2 (A0 : S100000x128.Idx → EReal) (A1 : S128x128.Idx → EReal) (A2 A3 A4 : S1x128.Idx → EReal)
    (r : Fin 100000) (o : Fin 128) :
    ofStaged A0 A1 A2 A3 A4 (ix2 r o)
      = rowOut (fun q' => (∑ k : Fin 128, A0 (ix2 r k) * A1 (ix2 q' k)) + A2 (ix2 (0 : Fin 1) q'))
          (fun q' => A3 (ix2 (0 : Fin 1) q')) (fun q' => A4 (ix2 (0 : Fin 1) q')) o := rfl

/-- WHAT POINT `t` WRITES BACK is block `t` of `ofStaged` of the arrays the call finds. -/
theorem flushed_eq (c : Dev nD) (t : Fin cfg0.N) :
    (Gen.dats m 0 c).flushed 5 t = ((cfg0.win 5).blk t).view.read (Elt Ideal)
      (ofStaged (Gen.V m c (Pipeline.arrRef spec0 0)) (Gen.V m c (Pipeline.arrRef spec0 1))
        (Gen.V m c (Pipeline.arrRef spec0 2)) (Gen.V m c (Pipeline.arrRef spec0 3)) (Gen.V m c (Pipeline.arrRef spec0 4))) := by
  rw [Cert.KernelIdeal.Value.flushed5]
  unfold Gen.out0_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show Gen.k0_pay1 (Gen.iblk m c 0 t) (Gen.iblk m c 1 t) (Gen.iblk m c 2 t) (Gen.iblk m c 3 t) (Gen.iblk m c 4 t) (ix2 p q) = _
  refine (payload_apply (Gen.iblk m c 0 t) (Gen.iblk m c 1 t) (Gen.iblk m c 2 t) (Gen.iblk m c 3 t) (Gen.iblk m c 4 t) p q).trans ?_
  rw [read5, ofStaged_ix2]
  simp only [blk0 m c t, blk1 m c t, blk2 m c t, blk3 m c t, blk4 m c t]

/-! ## The blocks cover the array -/

/-- An index of the result array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v16).slice (win0_5.rect t)).set ↔ _
  rw [View.set_slice_whole, Rect.mem_set_unit]
  exact Iff.rfl

/-- Row `r` of the result lies in the block of point `r / 5000`, which is written back. -/
theorem cover (i : S100000x128.Idx) :
    ∃ t : Fin cfg0.N, (cfg0.win 5).flush t = true ∧ i ∈ ((cfg0.win 5).blk t).view.set := by
  have hN : cfg0.N = 20 := Gen.N_0
  have hi0 : (i 0).val < 100000 := (i 0).isLt
  have hi1 : (i 1).val < 128 := (i 1).isLt
  obtain ⟨t, ht⟩ : ∃ t : Fin cfg0.N, t.val = (i 0).val / 5000 := ⟨⟨(i 0).val / 5000, by omega⟩, rfl⟩
  obtain ⟨-, -, -, -, -, -, -, -, -, -, e0, e1⟩ := idx_facts t
  refine ⟨t, Gen.flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 128 ≤ (i 1).val ∧ (i 1).val < win0_5.index t (1 : Fin 2) * 128 + 128
    rw [e1]; omega

/-- So the result array after the run is `ofStaged` of the arrays the call finds. -/
theorem final_staged (c : Dev nD) :
    (Gen.dats m 0 c).arrAt 5 cfg0.N
      = ofStaged (Gen.V m c (Pipeline.arrRef spec0 0)) (Gen.V m c (Pipeline.arrRef spec0 1))
          (Gen.V m c (Pipeline.arrRef spec0 2)) (Gen.V m c (Pipeline.arrRef spec0 3)) (Gen.V m c (Pipeline.arrRef spec0 4)) :=
  (Gen.dats m 0 c).arrAt_eq_of_cover 5 _ (fun t _ => flushed_eq m c t) cover

/-! ## In terms of the arguments -/

/-- A vector reshaped to one row, read back along that row, is the vector. -/
theorem row_of_reshape (v : S128.Idx → EReal) :
    (fun i : S128.Idx => shapeCast S1x128 v shapeCasts_S128_S1x128 (ix2 (0 : Fin 1) (i 0))) = v := by
  funext i
  obtain ⟨q, rfl⟩ : ∃ q : Fin 128, i = ix1 q := ⟨i 0, eq_ix1 i⟩
  exact shapeCast_a_1a_apply v shapeCasts_S128_S1x128 0 q

/-- The result array after the run, as a function of the eight argument arrays. -/
theorem final (c : Dev nD) :
    (Gen.dats m 0 c).arrAt 5 cfg0.N
      = result (featK (F := Ideal) (m ((c : Thread nD τ).loc main_arg0)) (m ((c : Thread nD τ).loc main_arg1))
            (m ((c : Thread nD τ).loc main_arg2)) (m ((c : Thread nD τ).loc main_arg3)))
          (m ((c : Thread nD τ).loc main_arg4)) (m ((c : Thread nD τ).loc main_arg5))
          (m ((c : Thread nD τ).loc main_arg6)) (m ((c : Thread nD τ).loc main_arg7)) := by
  have h0 : (Gen.V m c (Pipeline.arrRef spec0 0) : S100000x128.Idx → EReal) = _ := V_feat m c
  have h1 : (Gen.V m c (Pipeline.arrRef spec0 1) : S128x128.Idx → EReal) = _ := Gen.V_main_arg4 m c
  have h2 : (Gen.V m c (Pipeline.arrRef spec0 2) : S1x128.Idx → EReal) = _ := V_bias m c
  have h3 : (Gen.V m c (Pipeline.arrRef spec0 3) : S1x128.Idx → EReal) = _ := V_scale m c
  have h4 : (Gen.V m c (Pipeline.arrRef spec0 4) : S1x128.Idx → EReal) = _ := V_offset m c
  rw [final_staged, h0, h1, h2, h3, h4]
  unfold ofStaged
  rw [row_of_reshape, row_of_reshape, row_of_reshape]

/-! ## The run, read -/

/-- Every weakly fair execution of the kernel program terminates with the result array at `RowNorm.result` of the
    feature array, the weights, the bias, the scale and the offset, and the arguments unchanged. -/
theorem run : θ_run defs (onTc (τ := τ) (main (F := Ideal))) ⟨m, fun _ => 0, ρ⟩ fun r => ∀ c : Dev nD,
      r.2.mem ((c : Thread nD τ).loc main_v16)
        = result (featK (F := Ideal) (m ((c : Thread nD τ).loc main_arg0)) (m ((c : Thread nD τ).loc main_arg1))
              (m ((c : Thread nD τ).loc main_arg2)) (m ((c : Thread nD τ).loc main_arg3)))
            (m ((c : Thread nD τ).loc main_arg4)) (m ((c : Thread nD τ).loc main_arg5))
            (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final m c), (h c).2⟩)
    (Cert.KernelIdeal.Value.run_blocks m ρ)

end Cert.KernelIdeal.Whole

end
-- ==== Proof.RefRun.lean ====
/- The reference program's @main as one straight line of its eighty host operations, the five
   calls of outlined functions unfolded at their call sites, and its run read back: every weakly fair
   execution terminates with the result buffer at a composed pure term of the eight arguments' launch
   contents, the arguments unchanged. The composed term is stated through named pure functions
   (the scatter-add aggregation, the linear layer, the ELU, the row mean and variance, the normalisation). -/
import proofs.«164702_j38371237822945_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's eighty operations in order, the calls unfolded: sixteen up to the scatter-add, five of the
    linear layer, the ELU's fifteen (its two selects through the outlined `where` helpers: three and one),
    seven of the row mean, the variance function's twenty-three (its final select through a helper: three),
    and the fourteen of the normalisation. -/
abbrev ops : List (HloOp τ sig (Elt F)) :=
  [ unary main_arg3 main_v0 (broadcastInDim S1600000x1 ![0] bcast_S1600000_S1600000x1_0 : (⟨S1600000, .f32⟩ : BufTy).Contents (Elt F) → (⟨S1600000x1, .f32⟩ : BufTy).Contents (Elt F)),
    nullary main_c (constantI S_ 32 0#32),
    unary main_c main_v1 (broadcastInDim S1600000 ![] bcast_S_S1600000 : (⟨S_, .i32⟩ : BufTy).Contents (Elt F) → (⟨S1600000, .i32⟩ : BufTy).Contents (Elt F)),
    binary main_arg2 main_v1 main_v2 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v3 (broadcastInDim S1600000 ![] bcast_S_S1600000 : (⟨S_, .i32⟩ : BufTy).Contents (Elt F) → (⟨S1600000, .i32⟩ : BufTy).Contents (Elt F)),
    binary main_arg2 main_v3 main_v4 (addi : (⟨S1600000, .i32⟩ : BufTy).Contents (Elt F) → (⟨S1600000, .i32⟩ : BufTy).Contents (Elt F) → (⟨S1600000, .i32⟩ : BufTy).Contents (Elt F)),
    ternary main_v2 main_v4 main_arg2 main_v5 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v5 main_v6 (broadcastInDim S1600000x1 ![0] bcast_S1600000_S1600000x1_0 : (⟨S1600000, .i32⟩ : BufTy).Contents (Elt F) → (⟨S1600000x1, .i32⟩ : BufTy).Contents (Elt F)),
    binary main_arg0 main_v6 main_v7 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v0 main_v8 (broadcastInDim S1600000x128 ![0, 1] bcast_S1600000x1_S1600000x128_0_1 : (⟨S1600000x1, .f32⟩ : BufTy).Contents (Elt F) → (⟨S1600000x128, .f32⟩ : BufTy).Contents (Elt F)),
    binary main_v8 main_v7 main_v9 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v10 (broadcastInDim S100000x128 ![] bcast_S_S100000x128 : (⟨S_, .f32⟩ : BufTy).Contents (Elt F) → (⟨S100000x128, .f32⟩ : BufTy).Contents (Elt F)),
    unary main_arg1 main_v11 (broadcastInDim S1600000x1 ![0] bcast_S1600000_S1600000x1_0 : (⟨S1600000, .i32⟩ : BufTy).Contents (Elt F) → (⟨S1600000x1, .i32⟩ : BufTy).Contents (Elt F)),
    ternary main_v10 main_v11 main_v9 main_v12 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg4 main_v13 ((transpose S128x128 [1, 0] · transposes_S128x128_S128x128_1_0) : (⟨S128x128, .f32⟩ : BufTy).Contents (Elt F) → (⟨S128x128, .f32⟩ : BufTy).Contents (Elt F)),
    binary main_v12 main_v13 main_v14 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v15 (broadcastInDim S1x128 ![1] bcast_S128_S1x128_1 : (⟨S128, .f32⟩ : BufTy).Contents (Elt F) → (⟨S1x128, .f32⟩ : BufTy).Contents (Elt F)),
    unary main_v15 main_v16 (broadcastInDim S100000x128 ![0, 1] bcast_S1x128_S100000x128_0_1 : (⟨S1x128, .f32⟩ : BufTy).Contents (Elt F) → (⟨S100000x128, .f32⟩ : BufTy).Contents (Elt F)),
    binary main_v14 main_v16 main_v17 (addf : (⟨S100000x128, .f32⟩ : BufTy).Contents (Elt F) → (⟨S100000x128, .f32⟩ : BufTy).Contents (Elt F) → (⟨S100000x128, .f32⟩ : BufTy).Contents (Elt F)),
    TRef.nullary main_call0.cst (constant S_ .f32 0x00000000#32),
    TRef.unary main_call0.cst main_call0.v0 (broadcastInDim S100000x128 ![] bcast_S_S100000x128),
    TRef.binary (.of main_v17 : TRef sig ⟨S100000x128, .f32⟩) main_call0.v0 main_call0.v1 (cmpf .ogt),
    TRef.nullary main_call0.cst_0 (constant S_ .f32 0x00000000#32),
    TRef.unary main_call0.cst_0 main_call0.v2 (broadcastInDim S100000x128 ![] bcast_S_S100000x128),
    TRef.binary (.of main_v17 : TRef sig ⟨S100000x128, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x128 ![] bcast_S_S100000x128),
    TRef.ternary main_call0.v3 main_call0.call0.v1 (.of main_v17 : TRef sig ⟨S100000x128, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S100000x128 ![] bcast_S_S100000x128),
    TRef.binary main_call0.v6 main_call0.v5 main_call0.v7 mulf,
    TRef.ternary main_call0.v1 (.of main_v17 : TRef sig ⟨S100000x128, .f32⟩) main_call0.v7 main_call0.call1.v0 select,
    nullary main_cst_1 (constant S_ .f32 0x00000000#32),
    binary main_v18 main_cst_1 main_v19 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    nullary main_cst_2 (constant S_ .f32 0x43000000#32),
    unary main_cst_2 main_v21 (broadcastInDim S100000x1 ![] bcast_S_S100000x1 : (⟨S_, .f32⟩ : BufTy).Contents (Elt F) → (⟨S100000x1, .f32⟩ : BufTy).Contents (Elt F)),
    binary main_v20 main_v21 main_v22 (Host.divf : (⟨S100000x1, .f32⟩ : BufTy).Contents (Elt F) → (⟨S100000x1, .f32⟩ : BufTy).Contents (Elt F) → (⟨S100000x1, .f32⟩ : BufTy).Contents (Elt F)),
    nullary main_c_3 (constantI S_ 32 0#32),
    TRef.nullary main_call1.cst (constant S_ .f32 0x00000000#32),
    TRef.binary (.of main_v18 : TRef sig ⟨S100000x128, .f32⟩) main_call1.cst main_call1.v0 (fun x v => Host.reduceAdd x v reducesTo_S100000x128_S100000_d1 h_S_),
    TRef.unary main_call1.v0 main_call1.v1 (broadcastInDim S100000x1 ![0] bcast_S100000_S100000x1_0),
    TRef.nullary main_call1.cst_0 (constant S_ .f32 0x43000000#32),
    TRef.unary main_call1.cst_0 main_call1.v2 (broadcastInDim S100000x1 ![] bcast_S_S100000x1),
    TRef.binary main_call1.v1 main_call1.v2 main_call1.v3 Host.divf,
    TRef.unary main_call1.v3 main_call1.v4 (broadcastInDim S100000x128 ![0, 1] bcast_S100000x1_S100000x128_0_1),
    TRef.binary (.of main_v18 : TRef sig ⟨S100000x128, .f32⟩) main_call1.v4 main_call1.v5 subf,
    TRef.binary main_call1.v5 main_call1.v5 main_call1.v6 mulf,
    TRef.unary (.of main_c_3 : TRef sig ⟨S_, .i32⟩) main_call1.v7 (sitofp .f32),
    TRef.nullary main_call1.cst_1 (constant S_ .f32 0x43000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x128_S100000_d1 h_S_),
    TRef.unary main_call1.v9 main_call1.v10 (broadcastInDim S100000x1 ![0] bcast_S100000_S100000x1_0),
    TRef.unary main_call1.v8 main_call1.v11 (broadcastInDim S100000x1 ![] bcast_S_S100000x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S100000x1 ![] bcast_S_S100000x1),
    TRef.ternary main_call1.v13 main_call1.v12 main_call1.call0.v1 main_call1.call0.v2 (fun p a b => select (broadcastInDim S100000x1 ![] bcast_S_S100000x1 p) a b),
    nullary main_cst_4 (constant S_ .f32 0x3089705F#32),
    unary main_cst_4 main_v24 (broadcastInDim S100000x1 ![] bcast_S_S100000x1 : (⟨S_, .f32⟩ : BufTy).Contents (Elt F) → (⟨S100000x1, .f32⟩ : BufTy).Contents (Elt F)),
    binary main_v23 main_v24 main_v25 (addf : (⟨S100000x1, .f32⟩ : BufTy).Contents (Elt F) → (⟨S100000x1, .f32⟩ : BufTy).Contents (Elt F) → (⟨S100000x1, .f32⟩ : BufTy).Contents (Elt F)),
    unary main_v22 main_v26 (broadcastInDim S100000x128 ![0, 1] bcast_S100000x1_S100000x128_0_1 : (⟨S100000x1, .f32⟩ : BufTy).Contents (Elt F) → (⟨S100000x128, .f32⟩ : BufTy).Contents (Elt F)),
    binary main_v18 main_v26 main_v27 (subf : (⟨S100000x128, .f32⟩ : BufTy).Contents (Elt F) → (⟨S100000x128, .f32⟩ : BufTy).Contents (Elt F) → (⟨S100000x128, .f32⟩ : BufTy).Contents (Elt F)),
    unary main_arg6 main_v28 (broadcastInDim S1x128 ![1] bcast_S128_S1x128_1 : (⟨S128, .f32⟩ : BufTy).Contents (Elt F) → (⟨S1x128, .f32⟩ : BufTy).Contents (Elt F)),
    unary main_v28 main_v29 (broadcastInDim S100000x128 ![0, 1] bcast_S1x128_S100000x128_0_1 : (⟨S1x128, .f32⟩ : BufTy).Contents (Elt F) → (⟨S100000x128, .f32⟩ : BufTy).Contents (Elt F)),
    binary main_v27 main_v29 main_v30 (mulf : (⟨S100000x128, .f32⟩ : BufTy).Contents (Elt F) → (⟨S100000x128, .f32⟩ : BufTy).Contents (Elt F) → (⟨S100000x128, .f32⟩ : BufTy).Contents (Elt F)),
    unary main_v25 main_v31 (Host.rsqrt : (⟨S100000x1, .f32⟩ : BufTy).Contents (Elt F) → (⟨S100000x1, .f32⟩ : BufTy).Contents (Elt F)),
    unary main_v31 main_v32 (broadcastInDim S100000x128 ![0, 1] bcast_S100000x1_S100000x128_0_1 : (⟨S100000x1, .f32⟩ : BufTy).Contents (Elt F) → (⟨S100000x128, .f32⟩ : BufTy).Contents (Elt F)),
    binary main_v30 main_v32 main_v33 (mulf : (⟨S100000x128, .f32⟩ : BufTy).Contents (Elt F) → (⟨S100000x128, .f32⟩ : BufTy).Contents (Elt F) → (⟨S100000x128, .f32⟩ : BufTy).Contents (Elt F)),
    unary main_arg7 main_v34 (broadcastInDim S1x128 ![1] bcast_S128_S1x128_1 : (⟨S128, .f32⟩ : BufTy).Contents (Elt F) → (⟨S1x128, .f32⟩ : BufTy).Contents (Elt F)),
    unary main_v34 main_v35 (broadcastInDim S100000x128 ![0, 1] bcast_S1x128_S100000x128_0_1 : (⟨S1x128, .f32⟩ : BufTy).Contents (Elt F) → (⟨S100000x128, .f32⟩ : BufTy).Contents (Elt F)),
    binary main_v33 main_v35 main_v36 (addf : (⟨S100000x128, .f32⟩ : BufTy).Contents (Elt F) → (⟨S100000x128, .f32⟩ : BufTy).Contents (Elt F) → (⟨S100000x128, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-! ## The result as named pure functions -/

/-- The aggregated features: the scatter-add, by `row`, into a zero table of the edge messages
    `val[e] · x[col'[e]]`, where `col' = select (col < 0) (col + 100000) col`. -/
def feat (x : (⟨S100000x128, .f32⟩ : BufTy).Contents (Elt F)) (row col : (⟨S1600000, .i32⟩ : BufTy).Contents (Elt F)) (val : (⟨S1600000, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 row)
    (mulf
      (broadcastInDim S1600000x128 ![0, 1] bcast_S1600000x1_S1600000x128_0_1
        (broadcastInDim S1600000x1 ![0] bcast_S1600000_S1600000x1_0 val))
      (Host.gather gather_S100000x128_S1600000x1_S1600000x128_1_0_n_n_0_1_1128 x
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

/-- The linear layer: `ft · Wᵀ + b`, the bias broadcast along the rows. -/
def lin (ft : (⟨S100000x128, .f32⟩ : BufTy).Contents (Elt F)) (W : (⟨S128x128, .f32⟩ : BufTy).Contents (Elt F)) (b : (⟨S128, .f32⟩ : BufTy).Contents (Elt F)) :
    (⟨S100000x128, .f32⟩ : BufTy).Contents (Elt F) :=
  addf
    (Host.dotGeneral dot_S100000x128_S128x128_S100000x128_1_0_0_1_n_n none ft
      (transpose S128x128 [1, 0] W transposes_S128x128_S128x128_1_0))
    (broadcastInDim S100000x128 ![0, 1] bcast_S1x128_S100000x128_0_1 (broadcastInDim S1x128 ![1] bcast_S128_S1x128_1 b))

/-- The ELU: `l` where `l > 0`, else `1 · expm1 (select (l > 0) 0 l)`. -/
def elu (l : (⟨S100000x128, .f32⟩ : BufTy).Contents (Elt F)) : (⟨S100000x128, .f32⟩ : BufTy).Contents (Elt F) :=
  select (cmpf .ogt l (broadcastInDim S100000x128 ![] bcast_S_S100000x128 (constant S_ .f32 0x00000000#32))) l
    (mulf (broadcastInDim S100000x128 ![] bcast_S_S100000x128 (constant S_ .f32 0x3F800000#32))
      (Host.expm1
        (select (cmpf .ogt l (broadcastInDim S100000x128 ![] bcast_S_S100000x128 (constant S_ .f32 0x00000000#32)))
          (broadcastInDim S100000x128 ![] bcast_S_S100000x128 (id (constant S_ .f32 0x00000000#32))) l)))

/-- The row mean: the row sum from zero, divided by 128. -/
def rowMean (e : (⟨S100000x128, .f32⟩ : BufTy).Contents (Elt F)) : (⟨S100000x1, .f32⟩ : BufTy).Contents (Elt F) :=
  Host.divf
    (broadcastInDim S100000x1 ![0] bcast_S100000_S100000x1_0
      (Host.reduceAdd e (constant S_ .f32 0x00000000#32) reducesTo_S100000x128_S100000_d1 h_S_))
    (broadcastInDim S100000x1 ![] bcast_S_S100000x1 (constant S_ .f32 0x43000000#32))

/-- The row variance at zero degrees of freedom removed: the row sum of the squared deviations from the row
    mean (recomputed here), divided by `128 - 0`, kept where `128 - 0 > 0` and a NaN elsewhere. -/
def rowVar (e : (⟨S100000x128, .f32⟩ : BufTy).Contents (Elt F)) : (⟨S100000x1, .f32⟩ : BufTy).Contents (Elt F) :=
  select
    (broadcastInDim S100000x1 ![] bcast_S_S100000x1
      (cmpf (F := F) .ogt (subf (constant S_ .f32 0x43000000#32) (sitofp .f32 (constantI S_ 32 0#32))) (constant S_ .f32 0x00000000#32)))
    (Host.divf
      (broadcastInDim S100000x1 ![0] bcast_S100000_S100000x1_0
        (Host.reduceAdd
          (mulf
            (subf e
              (broadcastInDim S100000x128 ![0, 1] bcast_S100000x1_S100000x128_0_1
                (Host.divf
                  (broadcastInDim S100000x1 ![0] bcast_S100000_S100000x1_0
                    (Host.reduceAdd e (constant S_ .f32 0x00000000#32) reducesTo_S100000x128_S100000_d1 h_S_))
                  (broadcastInDim S100000x1 ![] bcast_S_S100000x1 (constant S_ .f32 0x43000000#32)))))
            (subf e
              (broadcastInDim S100000x128 ![0, 1] bcast_S100000x1_S100000x128_0_1
                (Host.divf
                  (broadcastInDim S100000x1 ![0] bcast_S100000_S100000x1_0
                    (Host.reduceAdd e (constant S_ .f32 0x00000000#32) reducesTo_S100000x128_S100000_d1 h_S_))
                  (broadcastInDim S100000x1 ![] bcast_S_S100000x1 (constant S_ .f32 0x43000000#32))))))
          (constant S_ .f32 0x00000000#32) reducesTo_S100000x128_S100000_d1 h_S_))
      (broadcastInDim S100000x1 ![] bcast_S_S100000x1
        (subf (constant S_ .f32 0x43000000#32) (sitofp .f32 (constantI S_ 32 0#32)))))
    (broadcastInDim S100000x1 ![] bcast_S_S100000x1 (id (constant S_ .f32 0x7FC00000#32)))

/-- The normalisation: `(e - mean) · scale · rsqrt (var + ε) + offset`, the mean and the variance the rows',
    `scale` and `offset` broadcast along the rows. -/
def out (e : (⟨S100000x128, .f32⟩ : BufTy).Contents (Elt F)) (scale offset : (⟨S128, .f32⟩ : BufTy).Contents (Elt F)) : (⟨S100000x128, .f32⟩ : BufTy).Contents (Elt F) :=
  addf
    (mulf
      (mulf (subf e (broadcastInDim S100000x128 ![0, 1] bcast_S100000x1_S100000x128_0_1 (rowMean e)))
        (broadcastInDim S100000x128 ![0, 1] bcast_S1x128_S100000x128_0_1 (broadcastInDim S1x128 ![1] bcast_S128_S1x128_1 scale)))
      (broadcastInDim S100000x128 ![0, 1] bcast_S100000x1_S100000x128_0_1
        (Host.rsqrt (addf (rowVar e) (broadcastInDim S100000x1 ![] bcast_S_S100000x1 (constant S_ .f32 0x3089705F#32))))))
    (broadcastInDim S100000x128 ![0, 1] bcast_S1x128_S100000x128_0_1 (broadcastInDim S1x128 ![1] bcast_S128_S1x128_1 offset))

/-- What the program computes from its eight arguments' contents. -/
def refOut (x : (⟨S100000x128, .f32⟩ : BufTy).Contents (Elt F)) (row col : (⟨S1600000, .i32⟩ : BufTy).Contents (Elt F)) (val : (⟨S1600000, .f32⟩ : BufTy).Contents (Elt F))
    (W : (⟨S128x128, .f32⟩ : BufTy).Contents (Elt F)) (b scale offset : (⟨S128, .f32⟩ : BufTy).Contents (Elt F)) : (⟨S100000x128, .f32⟩ : BufTy).Contents (Elt F) :=
  out (elu (lin (feat x row col val) W b)) scale offset

/-! ## The fold at the result and at the arguments -/

attribute [local irreducible] Host.scatterAdd Host.gather Host.reduceAdd Host.divf Host.rsqrt Host.expm1 in
set_option maxHeartbeats 1600000 in
/-- The fold at the result buffer is `refOut` of the arguments' contents: each operation's result at its own
    buffer is its function's value and at any other buffer what was there; what is left are the same pure
    operations on both sides, the typed references' casts the identity at these literal references. The host
    operations are kept folded meanwhile: the equation never looks inside them. -/
theorem out_eq (V : Valuation τ sig (Elt F)) :
    after ops V (main_v36 : DevRef τ sig) = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  unfold refOut out elu lin feat rowMean rowVar
  after_results_simp
  rfl

set_option maxHeartbeats 800000 in
/-- No operation writes argument 0. -/
theorem arg0_eq (V : Valuation τ sig (Elt F)) :
    after ops V (main_arg0 : DevRef τ sig) = V (main_arg0 : DevRef τ sig) := by
  after_results_simp

set_option maxHeartbeats 800000 in
/-- No operation writes argument 1. -/
theorem arg1_eq (V : Valuation τ sig (Elt F)) :
    after ops V (main_arg1 : DevRef τ sig) = V (main_arg1 : DevRef τ sig) := by
  after_results_simp

set_option maxHeartbeats 800000 in
/-- No operation writes argument 2. -/
theorem arg2_eq (V : Valuation τ sig (Elt F)) :
    after ops V (main_arg2 : DevRef τ sig) = V (main_arg2 : DevRef τ sig) := by
  after_results_simp

set_option maxHeartbeats 800000 in
/-- No operation writes argument 3. -/
theorem arg3_eq (V : Valuation τ sig (Elt F)) :
    after ops V (main_arg3 : DevRef τ sig) = V (main_arg3 : DevRef τ sig) := by
  after_results_simp

set_option maxHeartbeats 800000 in
/-- No operation writes argument 4. -/
theorem arg4_eq (V : Valuation τ sig (Elt F)) :
    after ops V (main_arg4 : DevRef τ sig) = V (main_arg4 : DevRef τ sig) := by
  after_results_simp

set_option maxHeartbeats 800000 in
/-- No operation writes argument 5. -/
theorem arg5_eq (V : Valuation τ sig (Elt F)) :
    after ops V (main_arg5 : DevRef τ sig) = V (main_arg5 : DevRef τ sig) := by
  after_results_simp

set_option maxHeartbeats 800000 in
/-- No operation writes argument 6. -/
theorem arg6_eq (V : Valuation τ sig (Elt F)) :
    after ops V (main_arg6 : DevRef τ sig) = V (main_arg6 : DevRef τ sig) := by
  after_results_simp

set_option maxHeartbeats 800000 in
/-- No operation writes argument 7. -/
theorem arg7_eq (V : Valuation τ sig (Elt F)) :
    after ops V (main_arg7 : DevRef τ sig) = V (main_arg7 : DevRef τ sig) := by
  after_results_simp

/-- On every device, for any float values, from any memory with zero counters: every weakly fair execution of
    @main terminates with the result buffer at `refOut` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v36).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_seq scopedRefs_eq scopedSems_eq defs main (fun _ => ops) main_eq (fun _ => ops_sub) m ρ)

end Cert.ReferenceIdeal.RefRun

end
-- ==== Proof.RefRead.lean ====
/-
  The reference's result read at an index, over the extended reals: each named stage of the result (the linear layer,
  the ELU, the row mean, the row variance, the normalisation) read at coordinates is the corresponding line of the
  one-row mathematics, so the whole result is that mathematics applied to the aggregated features, which are never
  opened here.
-/
import proofs.«164702_j38371237822945_1_alg».proof.Proof.RefRun
import proofs.«164702_j38371237822945_1_alg».proof.Proof.RowNorm
import proofs.«164702_j38371237822945_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefRead

open Cert.ReferenceIdeal Cert.ReferenceIdeal.Gen Idealize.ShloMosaic Idealize.ShloMosaic.ValueIdx
open Cert.RowNorm Cert.LibColumn
open scoped BigOperators

/-! ## The host's pointwise operations at an index (definitional) -/

theorem hostDivf_apply {s : Shape} (a b : FVec Ideal s .f32) (i : s.Idx) : Host.divf a b i = Ideal.div (a i) (b i) := rfl
theorem hostRsqrt_apply {s : Shape} (a : FVec Ideal s .f32) (i : s.Idx) : Host.rsqrt a i = Ideal.rsqrt (a i) := rfl
theorem hostExpm1_apply {s : Shape} (a : FVec Ideal s .f32) (i : s.Idx) : Host.expm1 a i = Ideal.exp (a i) - 1 := rfl

/-- A scalar constant spread over any shape reads, everywhere, the value its word denotes. -/
theorem spread_apply {t : Shape} (h : S_.BroadcastsInDim t ![]) (w : BitVec 32) (j : t.Idx) :
    broadcastInDim t ![] h (constant (F := Ideal) S_ .f32 w) j = Ideal.ofBits .f32 w :=
  broadcastInDim_scalar_apply _ h j

/-- The same through the identity conversion of the scalar. -/
theorem spread_id_apply {t : Shape} (h : S_.BroadcastsInDim t ![]) (w : BitVec 32) (j : t.Idx) :
    broadcastInDim t ![] h (id (constant (F := Ideal) S_ .f32 w)) j = Ideal.ofBits .f32 w :=
  broadcastInDim_scalar_apply _ h j

/-! ## The linear layer -/

/-- The layer's one contraction: `[100000, 128] × [128, 128]` over the left operand's columns and the right operand's rows. -/
abbrev D := dot_S100000x128_S128x128_S100000x128_1_0_0_1_n_n

theorem D_rank : D.contr.rank = 1 := rfl
theorem D_size : D.contr.size ⟨0, by rw [D_rank]; exact Nat.one_pos⟩ = 128 := rfl

/-- The host's product of a `[100000, 128]` array with the TRANSPOSED `[128, 128]` weights, read at `(r, q)`: the sum
    over the contracted feature `k` of entry `(r, k)` times weight `(q, k)`. -/
theorem product_apply (a : FVec Ideal S100000x128 .f32) (w : FVec Ideal S128x128 .f32)
    (ht : S128x128.Transposes [1, 0] S128x128) (r : Fin 100000) (q : Fin 128) :
    Host.dotGeneral dot_S100000x128_S128x128_S100000x128_1_0_0_1_n_n none a (transpose S128x128 [1, 0] w ht) (ix2 r q)
      = ∑ k : Fin 128, a (ix2 r k) * w (ix2 q k) := by
  refine (Ideal.dotGeneral_apply D none .single a _ (ix2 r q)).trans ?_
  refine (Equiv.sum_comp (contrEquiv1 D 128 D_rank D_size).symm _).symm.trans ?_
  refine Finset.sum_congr rfl fun k _ => ?_
  have hl : D.lhsIdx (ix2 r q) ((contrEquiv1 D 128 D_rank D_size).symm k) = ix2 r k := by
    funext ax; apply Fin.ext
    match ax with
    | ⟨0, _⟩ => rfl
    | ⟨1, _⟩ =>
      exact (D.lhsIdx_val_of_single (cl := (1 : Fin 2)) rfl (ix2 r q) ((contrEquiv1 D 128 D_rank D_size).symm k)).trans
        (contrEquiv1_symm_val D 128 D_rank D_size k)
  have hr : D.rhsIdx (ix2 r q) ((contrEquiv1 D 128 D_rank D_size).symm k) = ix2 k q := by
    funext ax; apply Fin.ext
    match ax with
    | ⟨0, _⟩ =>
      exact (D.rhsIdx_val_of_single (cr := (0 : Fin 2)) rfl (ix2 r q) ((contrEquiv1 D 128 D_rank D_size).symm k)).trans
        (contrEquiv1_symm_val D 128 D_rank D_size k)
    | ⟨1, _⟩ => rfl
  rw [hl, hr]
  exact congrArg (a (ix2 r k) * ·) (transpose_ix2_apply w ht k q)

/-- The linear layer read at `(r, q)`: the row's linear output at feature `q`. -/
theorem lin_apply (ft : FVec Ideal S100000x128 .f32) (W : FVec Ideal S128x128 .f32) (b : FVec Ideal S128 .f32)
    (r : Fin 100000) (q : Fin 128) :
    RefRun.lin (F := Ideal) ft W b (ix2 r q) = linRow (fun k => ft (ix2 r k)) W b q := by
  unfold RefRun.lin linRow
  rw [addf_apply, product_apply, broadcastInDim_1b_ab_apply, broadcastInDim_b_1b_apply]

/-! ## The ELU -/

/-- The ELU read at an index: the activation of the element. -/
theorem elu_apply (l : FVec Ideal S100000x128 .f32) (i : S100000x128.Idx) : RefRun.elu (F := Ideal) l i = act (l i) := by
  unfold RefRun.elu
  rw [select_apply, mulf_apply, hostExpm1_apply, select_apply, cmpf_apply, spread_apply, spread_apply, spread_id_apply]
  exact act_guarded (l i)

/-! ## The row statistics -/

/-- The host's sum along the rows from the initial value `0.0`, read at row `r`: the sum over the row's 128 columns. -/
theorem rowSum_apply (e : FVec Ideal S100000x128 .f32) (h' : S100000x128.ReducesTo [1] S100000) (hu : 0 < S_.numel)
    (r : Fin 100000) :
    Host.reduceAdd e (constant S_ .f32 0x00000000#32) h' hu (ix1 r) = ∑ q : Fin 128, e (ix2 r q) := by
  have h : S100000x128.Reduces [1] S100000 := by decide
  refine (Ideal.hostReduceAdd_single h' h e _ (ix1 r)).trans ?_
  refine (congrArg (· + _) zero_word).trans ((zero_add _).trans ?_)
  exact Finset.sum_congr rfl fun k _ => congrArg e (funext fun a => Fin.ext (match a with | ⟨0, _⟩ => rfl | ⟨1, _⟩ => rfl))

/-- The row mean read at `(r, u)`: the row's sum divided by `128.0`. -/
theorem rowMean_apply (e : FVec Ideal S100000x128 .f32) (r : Fin 100000) (u : Fin 1) :
    RefRun.rowMean (F := Ideal) e (ix2 r u)
      = Ideal.div (∑ q : Fin 128, e (ix2 r q)) (Ideal.ofBits .f32 0x43000000#32) := by
  unfold RefRun.rowMean
  rw [hostDivf_apply, broadcastInDim_a_a1_apply, rowSum_apply, spread_apply]

/-- The variance function's divisor `128.0 − float(0)` is `128.0`. -/
theorem divisor_apply :
    subf (constant (F := Ideal) S_ .f32 0x43000000#32) (sitofp .f32 (constantI S_ 32 0#32)) ix0
      = Ideal.ofBits .f32 0x43000000#32 := by
  show Ideal.ofBits .f32 0x43000000#32 - ((((0#32 : BitVec 32).toInt : ℤ) : ℝ) : EReal) = Ideal.ofBits .f32 0x43000000#32
  rw [BitVec.toInt_zero, Int.cast_zero, EReal.coe_zero, sub_zero]

/-- Its guard `128.0 − float(0) > 0.0` holds. -/
theorem guard_apply :
    cmpf (F := Ideal) .ogt (subf (constant S_ .f32 0x43000000#32) (sitofp .f32 (constantI S_ 32 0#32)))
        (constant S_ .f32 0x00000000#32) ix0 = 1#1 := by
  rw [cmpf_apply, divisor_apply]
  show BitVec.ofBool (decide (Ideal.ofBits .f32 0x00000000#32 < Ideal.ofBits .f32 0x43000000#32)) = 1#1
  rw [zero_word, c128_word, decide_eq_true (EReal.coe_pos.mpr (by norm_num))]
  rfl

/-- The row variance read at `(r, u)`: the row's sum of squared deviations from the row mean, divided by `128.0`. -/
theorem rowVar_apply (e : FVec Ideal S100000x128 .f32) (r : Fin 100000) (u : Fin 1) :
    RefRun.rowVar (F := Ideal) e (ix2 r u)
      = Ideal.div (∑ q : Fin 128,
            (e (ix2 r q) - Ideal.div (∑ q' : Fin 128, e (ix2 r q')) (Ideal.ofBits .f32 0x43000000#32))
              * (e (ix2 r q) - Ideal.div (∑ q' : Fin 128, e (ix2 r q')) (Ideal.ofBits .f32 0x43000000#32)))
          (Ideal.ofBits .f32 0x43000000#32) := by
  have hM : ∀ (h1 : S100000x1.BroadcastsInDim S100000x128 ![0, 1]) (q : Fin 128),
      broadcastInDim S100000x128 ![0, 1] h1 (RefRun.rowMean (F := Ideal) e) (ix2 r q)
        = Ideal.div (∑ q' : Fin 128, e (ix2 r q')) (Ideal.ofBits .f32 0x43000000#32) :=
    fun h1 q => (broadcastInDim_a1_ab_apply _ h1 r q).trans (rowMean_apply e r 0)
  unfold RefRun.rowVar
  rw [select_apply, broadcastInDim_scalar_apply, guard_apply, select_one, hostDivf_apply, broadcastInDim_a_a1_apply,
    rowSum_apply, broadcastInDim_scalar_apply, divisor_apply]
  refine congrArg (Ideal.div · _) (Finset.sum_congr rfl fun q _ => ?_)
  rw [mulf_apply, subf_apply]
  exact congrArg (fun t => (e (ix2 r q) - t) * (e (ix2 r q) - t)) (hM _ q)

/-! ## The normalisation and the whole result -/

/-- The normalisation read at `(r, o)`. -/
theorem out_apply (e : FVec Ideal S100000x128 .f32) (sc off : FVec Ideal S128 .f32) (r : Fin 100000) (o : Fin 128) :
    RefRun.out (F := Ideal) e sc off (ix2 r o)
      = (e (ix2 r o) - Ideal.div (∑ q : Fin 128, e (ix2 r q)) (Ideal.ofBits .f32 0x43000000#32))
            * sc (ix1 o)
            * Ideal.rsqrt
                (Ideal.div (∑ q : Fin 128,
                    (e (ix2 r q) - Ideal.div (∑ q' : Fin 128, e (ix2 r q')) (Ideal.ofBits .f32 0x43000000#32))
                      * (e (ix2 r q) - Ideal.div (∑ q' : Fin 128, e (ix2 r q')) (Ideal.ofBits .f32 0x43000000#32)))
                  (Ideal.ofBits .f32 0x43000000#32)
                + Ideal.ofBits .f32 0x3089705F#32)
          + off (ix1 o) := by
  unfold RefRun.out
  rw [addf_apply, mulf_apply, mulf_apply, subf_apply, broadcastInDim_a1_ab_apply, rowMean_apply,
    broadcastInDim_1b_ab_apply, broadcastInDim_b_1b_apply, broadcastInDim_a1_ab_apply, hostRsqrt_apply, addf_apply,
    rowVar_apply, spread_apply, broadcastInDim_1b_ab_apply, broadcastInDim_b_1b_apply]

/-- The reference's result is the one-row mathematics applied to the aggregated features. -/
theorem refOut_eq (x : (⟨S100000x128, .f32⟩ : BufTy).Contents (Elt Ideal)) (row col : (⟨S1600000, .i32⟩ : BufTy).Contents (Elt Ideal))
    (val : (⟨S1600000, .f32⟩ : BufTy).Contents (Elt Ideal)) (W : (⟨S128x128, .f32⟩ : BufTy).Contents (Elt Ideal))
    (b scale offset : (⟨S128, .f32⟩ : BufTy).Contents (Elt Ideal)) :
    RefRun.refOut (F := Ideal) x row col val W b scale offset
      = Cert.RowNorm.result (RefRun.feat (F := Ideal) x row col val) W b scale offset := by
  unfold RefRun.refOut
  generalize RefRun.feat (F := Ideal) x row col val = ft
  funext i
  obtain ⟨r, o, rfl⟩ : ∃ (r : Fin 100000) (o : Fin 128), i = ix2 r o := ⟨i 0, i 1, eq_ix2 i⟩
  rw [result_ix2, out_apply]
  unfold rowOut
  simp only [elu_apply, lin_apply]

end Cert.ReferenceIdeal.RefRead

end
-- ==== Proof.lean ====
/-
  The certificate of a graph-convolution layer: a Pallas kernel program against its jnp reference, equal as extended reals.

  Both programs first aggregate messages on the host — for every edge the source node's feature row, scaled by the edge
  value, is added into the destination node's row — by the same gather and scatter-add; that feature array is one term
  on both sides and is never opened. From it each computes, per node `r` and output feature `o`,

      lin r q = (∑ k, feat r k · W q k) + b q,      act = ELU (x above zero, exp x − 1 otherwise),
      out r o = (act r o − mean_r) · scale o · (mean_r((act − mean_r)²) + ε)^(−1/2) + offset o,

  the kernel in one pallas_call over 20 blocks of 5000 rows (the product on the matrix unit from bf16-cast operands,
  which at the extended reals is the exact product), the reference by whole-array host operations (`jax.nn.elu` through
  `expm1` of a guarded argument, `jnp.var` recomputing the mean and dividing by `128 − 0` under a positivity guard).
  Proof/RowNorm.lean states the row mathematics once; Proof/KernelBody.lean reads the kernel body's stored value at an
  index as that mathematics, Proof/KernelValue.lean carries it from the 20 written-back blocks to the whole result array
  (Proof/KernelHost.lean: what the host operations before the call leave in the staged arrays); Proof/RefRun.lean is the
  reference's run with its outlined functions unfolded, Proof/RefRead.lean reads its result at an index as the same
  mathematics. No law that needs finiteness is used: the two sides are the same function of the feature array on every
  extended real, so the precondition is never opened. The idealization rewrote nothing, so `preserves` is `True`.
-/
import proofs.«164702_j38371237822945_1_alg».proof.Defs
import proofs.«164702_j38371237822945_1_alg».proof.Proof.Gen.Kernel
import proofs.«164702_j38371237822945_1_alg».proof.Proof.Gen.Kernel.Skeleton
import proofs.«164702_j38371237822945_1_alg».proof.Proof.Gen.Kernel.Launch
import proofs.«164702_j38371237822945_1_alg».proof.Proof.Gen.Kernel.Points
import proofs.«164702_j38371237822945_1_alg».proof.Proof.Gen.Kernel.Frame
import proofs.«164702_j38371237822945_1_alg».proof.Proof.Gen.KernelIdeal
import proofs.«164702_j38371237822945_1_alg».proof.Proof.Gen.KernelIdeal.Skeleton
import proofs.«164702_j38371237822945_1_alg».proof.Proof.Gen.KernelIdeal.Launch
import proofs.«164702_j38371237822945_1_alg».proof.Proof.Gen.KernelIdeal.Points
import proofs.«164702_j38371237822945_1_alg».proof.Proof.Gen.KernelIdeal.Frame
import proofs.«164702_j38371237822945_1_alg».proof.Proof.Gen.KernelIdeal.Value
import proofs.«164702_j38371237822945_1_alg».proof.Proof.Gen.ReferenceIdeal
import proofs.«164702_j38371237822945_1_alg».proof.Proof.Gen.Pre_finite_inputs
import proofs.«164702_j38371237822945_1_alg».proof.Proof.KernelValue
import proofs.«164702_j38371237822945_1_alg».proof.Proof.RefRead
import Idealize.ShloMosaic.Adequacy
import Idealize.ShloMosaic.Init

noncomputable section

namespace Cert.Proof

open Idealize.ShloMosaic Idealize.SL.Sem

/-- The two programs' feature arrays are one function of the node features and the edge lists: the same host
    operations in the same order, the gather's and the scatter-add's dimension numbers equal field by field. -/
theorem feat_eq (x : (⟨Cert.KernelIdeal.S100000x128, .f32⟩ : BufTy).Contents (Elt Ideal))
    (row col : (⟨Cert.KernelIdeal.S1600000, .i32⟩ : BufTy).Contents (Elt Ideal))
    (val : (⟨Cert.KernelIdeal.S1600000, .f32⟩ : BufTy).Contents (Elt Ideal)) :
    Cert.ReferenceIdeal.RefRun.feat (F := Ideal) x row col val = Cert.KernelIdeal.HostPart.featK (F := Ideal) x row col val := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end, the kernel program's result array at the row mathematics of its feature array (Proof/KernelValue.lean)
    and the reference's at the row mathematics of its own (Proof/RefRead.lean); the arguments agree and the two feature
    arrays are one term, so the results are equal. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5, a6, a7⟩ := hagree c
  rw [a0, a1, a2, a3, a4, a5, a6, a7, Cert.ReferenceIdeal.RefRead.refOut_eq, feat_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
